-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x128 : Shape := ⟨3, ![8, 2048, 128]⟩
abbrev S8x4096x128 : Shape := ⟨3, ![8, 4096, 128]⟩
abbrev S_ : Shape := ⟨0, ![]⟩

class Facts : Prop where
  bcast_S_S8x2048x128 : S_.BroadcastsInDim S8x2048x128 (![] : Fin 0 → Fin S8x2048x128.rank)
  reducesTo_S8x2048x128_S_d0_1_2 : S8x2048x128.ReducesTo [0, 1, 2] S_
  h_S_ : 0 < S_.numel
  bcast_S_S8x4096x128 : S_.BroadcastsInDim S8x4096x128 (![] : Fin 0 → Fin S8x4096x128.rank)
  reducesTo_S8x4096x128_S_d0_1_2 : S8x4096x128.ReducesTo [0, 1, 2] S_

variable [Facts]

def fn {F : FTy → Type} [FloatOps F] (main_arg0 : FVec F S8x2048x128 .f32) (main_arg1 : FVec F S8x4096x128 .f32) : IVec S_ 1 :=
  let main_v0 : FVec F S8x2048x128 .f32 := Host.absf main_arg0
  let main_cst : FVec F S_ .f32 := constant S_ .f32 0x7F800000#32
  let main_v1 : FVec F S8x2048x128 .f32 := broadcastInDim S8x2048x128 ![] bcast_S_S8x2048x128 main_cst
  let main_v2 : IVec S8x2048x128 1 := cmpf .olt main_v0 main_v1
  let main_c : IVec S_ 1 := constantI S_ 1 1#1
  let main_v3 : IVec S_ 1 := (fun x v => Host.reduce IntOp.andi x v reducesTo_S8x2048x128_S_d0_1_2 h_S_) main_v2 main_c
  let main_v4 : FVec F S8x4096x128 .f32 := Host.absf main_arg1
  let main_cst_0 : FVec F S_ .f32 := constant S_ .f32 0x7F800000#32
  let main_v5 : FVec F S8x4096x128 .f32 := broadcastInDim S8x4096x128 ![] bcast_S_S8x4096x128 main_cst_0
  let main_v6 : IVec S8x4096x128 1 := cmpf .olt main_v4 main_v5
  let main_c_1 : IVec S_ 1 := constantI S_ 1 1#1
  let main_v7 : IVec S_ 1 := (fun x v => Host.reduce IntOp.andi x v reducesTo_S8x4096x128_S_d0_1_2 h_S_) main_v6 main_c_1
  let main_v8 : IVec S_ 1 := andi main_v3 main_v7
  main_v8
-- ==== Kernel.lean ====
abbrev S8x2048x128 : Shape := ⟨3, ![8, 2048, 128]⟩
abbrev S8x4096x128 : Shape := ⟨3, ![8, 4096, 128]⟩
abbrev S8x2048x4096 : Shape := ⟨3, ![8, 2048, 4096]⟩
abbrev S1x256x128 : Shape := ⟨3, ![1, 256, 128]⟩
abbrev S1x4096x128 : Shape := ⟨3, ![1, 4096, 128]⟩
abbrev S1x256x4096 : Shape := ⟨3, ![1, 256, 4096]⟩
abbrev S1x256 : Shape := ⟨2, ![1, 256]⟩
abbrev S1x256x1 : Shape := ⟨3, ![1, 256, 1]⟩

abbrev nBuf : Space → Nat
  | .hbm => 4
  | .vmem => 7
  | .smem => 0
  | _ => 0

abbrev bufTy : (tb : Table) → Fin (tcTables nBuf tb) → BufTy
  | .hbm, ⟨0, _⟩ => ⟨S8x2048x128, .f32⟩
  | .hbm, ⟨1, _⟩ => ⟨S8x4096x128, .f32⟩
  | .hbm, ⟨2, _⟩ => ⟨S8x2048x128, .f32⟩
  | .hbm, ⟨3, _⟩ => ⟨S8x2048x4096, .f32⟩
  | .local _ .vmem, ⟨0, _⟩ => ⟨S1x256x128, .f32⟩
  | .local _ .vmem, ⟨1, _⟩ => ⟨S1x256x128, .f32⟩
  | .local _ .vmem, ⟨2, _⟩ => ⟨S1x4096x128, .f32⟩
  | .local _ .vmem, ⟨3, _⟩ => ⟨S1x256x128, .f32⟩
  | .local _ .vmem, ⟨4, _⟩ => ⟨S1x256x128, .f32⟩
  | .local _ .vmem, ⟨5, _⟩ => ⟨S1x256x4096, .f32⟩
  | .local _ .vmem, ⟨6, _⟩ => ⟨S1x256x4096, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x256x128_S1x256x128_0_0_0 : ∀ a, (![0, 0, 0] : Fin 3 → Nat) a + S1x256x128.size a ≤ S1x256x128.size a
  h_S1x256x128 : 0 < S1x256x128.numel
  inb_S1x4096x128_S1x4096x128_0_0_0 : ∀ a, (![0, 0, 0] : Fin 3 → Nat) a + S1x4096x128.size a ≤ S1x4096x128.size a
  h_S1x4096x128 : 0 < S1x4096x128.numel
  bitsLt_bf16_f32 : FTy.bits .bf16 < FTy.bits .f32
  reduces_S1x256x4096_S1x256 : S1x256x4096.Reduces [2] S1x256
  shapeCasts_S1x256_S1x256x1 : S1x256.ShapeCasts S1x256x1
  broadcasts_S1x256x1_S1x256x4096 : S1x256x1.Broadcasts S1x256x4096
  inb_S1x256x4096_S1x256x4096_0_0_0 : ∀ a, (![0, 0, 0] : Fin 3 → Nat) a + S1x256x4096.size a ≤ S1x256x4096.size a
  h_S1x256x4096 : 0 < S1x256x4096.numel
  broadcasts_S1x256x1_S1x256x128 : S1x256x1.Broadcasts S1x256x128
  dot_S1x256x128_S1x4096x128_S1x256x4096_2_2_1_1_0_0_wf : DotDims.WF S1x256x128 S1x4096x128 S1x256x4096 [2] [2] [1] [1] [0] [0]
  dot_S1x256x4096_S1x4096x128_S1x256x128_2_1_1_2_0_0_wf : DotDims.WF S1x256x4096 S1x4096x128 S1x256x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x128.size a ≤ S8x2048x128.size a
  hwx0_0 : ∀ i : grid0.Coords, EltTy.bits .f32 = 32 ∨ (Rect.block (s := S8x2048x128) S1x256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096x128.size a ≤ S8x4096x128.size a
  hwx0_1 : ∀ i : grid0.Coords, EltTy.bits .f32 = 32 ∨ (Rect.block (s := S8x4096x128) S1x4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x128.size a ≤ S8x2048x128.size a
  hwx0_2 : ∀ i : grid0.Coords, EltTy.bits .f32 = 32 ∨ (Rect.block (s := S8x2048x128) S1x256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x4096.size a ≤ S8x2048x4096.size a
  hwx0_3 : ∀ i : grid0.Coords, EltTy.bits .f32 = 32 ∨ (Rect.block (s := S8x2048x4096) S1x256x4096.size (cc0_transform_3 i) (hinb0_3 i)).WholeWords (EltTy.packing .f32)

variable [Facts₀]

def dot_S1x256x128_S1x4096x128_S1x256x4096_2_2_1_1_0_0 : DotDims S1x256x128 S1x4096x128 S1x256x4096 where
  lhsContracting := [2]
  rhsContracting := [2]
  lhsNonContracting := [1]
  rhsNonContracting := [1]
  lhsBatch := [0]
  rhsBatch := [0]
  wf := dot_S1x256x128_S1x4096x128_S1x256x4096_2_2_1_1_0_0_wf
def dot_S1x256x4096_S1x4096x128_S1x256x128_2_1_1_2_0_0 : DotDims S1x256x4096 S1x4096x128 S1x256x128 where
  lhsContracting := [2]
  rhsContracting := [1]
  lhsNonContracting := [1]
  rhsNonContracting := [2]
  lhsBatch := [0]
  rhsBatch := [0]
  wf := dot_S1x256x4096_S1x4096x128_S1x256x128_2_1_1_2_0_0_wf

abbrev win0_0 : Pipeline.Window sig grid0 :=
  Pipeline.Window.ofSpec (Memref.whole main_arg0) S1x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x256x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x128 : Shape := ⟨3, ![8, 2048, 128]⟩
abbrev S8x4096x128 : Shape := ⟨3, ![8, 4096, 128]⟩
abbrev S8x2048x4096 : Shape := ⟨3, ![8, 2048, 4096]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S8x4096x128, .f32⟩
  | .hbm, ⟨2, _⟩ => ⟨S8x2048x4096, .f32⟩
  | .hbm, ⟨3, _⟩ => ⟨S_, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S8x2048x1, .f32⟩
  | .hbm, ⟨9, _⟩ => ⟨S8x2048x4096, .f32⟩
  | .hbm, ⟨10, _⟩ => ⟨S8x2048x4096, .f32⟩
  | .hbm, ⟨11, _⟩ => ⟨S8x2048x4096, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S8x2048x4096, .f32⟩
  | .hbm, ⟨16, _⟩ => ⟨S8x2048x4096, .f32⟩
  | .hbm, ⟨17, _⟩ => ⟨S8x2048x128, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S8x2048x4096_S8x2048_d2 : S8x2048x4096.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x4096_0_1_2 : S8x2048x1.BroadcastsInDim S8x2048x4096 (![0, 1, 2] : Fin 3 → Fin S8x2048x4096.rank)
  dot_S8x2048x128_S8x4096x128_S8x2048x4096_2_2_1_1_0_0_wf : DotDims.WF S8x2048x128 S8x4096x128 S8x2048x4096 [2] [2] [1] [1] [0] [0]
  dot_S8x2048x4096_S8x4096x128_S8x2048x128_2_1_1_2_0_0_wf : DotDims.WF S8x2048x4096 S8x4096x128 S8x2048x128 [2] [1] [1] [2] [0] [0]

variable [Facts₀]

def dot_S8x2048x128_S8x4096x128_S8x2048x4096_2_2_1_1_0_0 : DotDims S8x2048x128 S8x4096x128 S8x2048x4096 where
  lhsContracting := [2]
  rhsContracting := [2]
  lhsNonContracting := [1]
  rhsNonContracting := [1]
  lhsBatch := [0]
  rhsBatch := [0]
  wf := dot_S8x2048x128_S8x4096x128_S8x2048x4096_2_2_1_1_0_0_wf
def dot_S8x2048x4096_S8x4096x128_S8x2048x128_2_1_1_2_0_0 : DotDims S8x2048x4096 S8x4096x128 S8x2048x128 where
  lhsContracting := [2]
  rhsContracting := [1]
  lhsNonContracting := [1]
  rhsNonContracting := [2]
  lhsBatch := [0]
  rhsBatch := [0]
  wf := dot_S8x2048x4096_S8x4096x128_S8x2048x128_2_1_1_2_0_0_wf

class Facts : Prop extends Facts₀ where

variable [Facts]
-- ==== Proof.LibFiniteAll.lean ====
/-
  A precondition's "every entry is finite", read back at the extended reals.

  Such a conjunct is printed as the reduction by "and", over a whole array, of the entrywise test |x| < +∞, from the
  constant 1, and the claim says the result is 1. The word of +∞ denotes ⊤; the absolute value of x is max x (−x) and the
  comparison is the order's; so the test at an entry says x is neither infinity, that is a real number. A reduction by
  "and" into one result that came out 1 met a 1 at every entry.
-/
import Idealize.ShloMosaic.Lib.ReduceAll
import Idealize.ShloMosaic.Lib.ValueIdx
import Idealize.ShloMosaic.PureOps.Ideal.Laws

noncomputable section

namespace Cert.Lib.FiniteAll

open Idealize.ShloMosaic

instance : Subsingleton (⟨0, ![]⟩ : Shape).Idx := ⟨fun a b => funext fun d => d.elim0⟩

/-- The word of +∞ denotes ⊤. -/
theorem ofBits_inf : Ideal.ofBits .f32 0x7F800000#32 = ⊤ := by
  simp [Ideal.ofBits, Ideal.ieee]

/-- An extended real whose absolute value is below +∞ is a real number. -/
theorem real_of_abs_lt_inf (x : EReal)
    (h : Ideal.cmp .olt (max x (-x)) (Ideal.ofBits .f32 0x7F800000#32) = 1#1) : ∃ r : ℝ, x = (r : EReal) := by
  rw [ofBits_inf] at h
  have hlt : max x (-x) < ⊤ := by
    by_contra hc
    simp [Ideal.cmp, hc] at h
  induction x using EReal.rec with
  | bot => simp at hlt
  | top => simp at hlt
  | coe r => exact ⟨r, rfl⟩

/-- One conjunct of the precondition: the reduction by "and" of the entrywise test came out 1, so every entry of the
    array is a real number. -/
theorem real_of_all {S : Shape} {axes : List (Fin S.rank)} (x : FVec Ideal S .f32)
    (hb : (⟨0, ![]⟩ : Shape).BroadcastsInDim S (![] : Fin 0 → Fin S.rank)) (hr : S.ReducesTo axes (⟨0, ![]⟩ : Shape)) (h0 : 0 < (⟨0, ![]⟩ : Shape).numel)
    (h : Host.reduce IntOp.andi (cmpf .olt (Host.absf x) (broadcastInDim S ![] hb (constant (⟨0, ![]⟩ : Shape) .f32 0x7F800000#32)))
        (constantI (⟨0, ![]⟩ : Shape) 1 1#1) hr h0 ValueIdx.ix0 = 1#1) (i : S.Idx) : ∃ r : ℝ, x i = (r : EReal) :=
  real_of_abs_lt_inf (x i) (Host.reduce_andi_all _ _ hr h0 ValueIdx.ix0 h i)

end Cert.Lib.FiniteAll

end
-- ==== Proof.Finite.lean ====
/-
  The precondition read back: it is the conjunction of "every entry of the queries is finite" and "every entry of the keys
  is finite", so under it both arrays hold real numbers only.
-/
import proofs.«169890_j49331994362117_2_alg».proof.Pre_finite_inputs
import proofs.«169890_j49331994362117_2_alg».proof.Proof.LibFiniteAll
import Idealize.ShloMosaic.Lib.Affine

noncomputable section

namespace Cert.Attention

open Idealize.ShloMosaic

/-- Where the precondition's function is all ones, every entry of both argument arrays is a real number. -/
theorem args_real [Cert.Pre_finite_inputs.Facts]
    (x0 : FVec Ideal Cert.Pre_finite_inputs.S8x2048x128 .f32) (x1 : FVec Ideal Cert.Pre_finite_inputs.S8x4096x128 .f32)
    (h : Cert.Pre_finite_inputs.fn (F := Ideal) x0 x1 = fun _ => 1#1) :
    (∀ i, ∃ r : ℝ, x0 i = (r : EReal)) ∧ (∀ i, ∃ r : ℝ, x1 i = (r : EReal)) := by
  have h0 := congrFun h ValueIdx.ix0
  dsimp only [Cert.Pre_finite_inputs.fn] at h0
  obtain ⟨ha, hb⟩ := IntOp.andi_eq_one.mp h0
  exact ⟨Cert.Lib.FiniteAll.real_of_all x0 _ _ _ ha, Cert.Lib.FiniteAll.real_of_all x1 _ _ _ hb⟩

end Cert.Attention

end
-- ==== Proof.RowSoftmax.lean ====
/-
  One query row of dot-product attention, on the extended reals.

  A row has a score s k for every key k. Its weights are w k = exp (s k − max s) / Σ, where Σ is the sum over the keys of
  exp (s − max s), and its context entry against a column e of values is the sum over the keys of w k · e k. Two
  arrangements of this arithmetic are set side by side here. One multiplies by the reciprocal: each exponential, and the
  whole sum of the products exp (s k − max s) · e k, is multiplied by 1 / Σ. The other divides: each exponential is divided
  by Σ, and the quotients are then multiplied by the values and summed.

  When every score and every value is a real number the two agree. The maximum of finitely many reals (at least one) taken
  from −∞ is a real number; so each exponential is a positive real and Σ is a positive real; dividing by a nonzero real is
  multiplying by its reciprocal; and over the reals a product distributes over a finite sum. On the extended reals at
  large none of the last three steps is available (a product does not distribute over a sum that meets both infinities),
  which is why the statements ask for real entries.
-/
import Idealize.ShloMosaic.PureOps.Ideal
import Idealize.ShloMosaic.PureOps.Ideal.Laws

noncomputable section

namespace Cert.RowSoftmax

open Idealize.ShloMosaic

variable {n : ℕ}

/-- The word of −∞ denotes the least extended real. -/
theorem negInf_eq_bot : Ideal.ofBits .f32 0xFF800000#32 = ⊥ := by
  simp [Ideal.ofBits, Ideal.ieee]

/-- The word of 1.0 denotes one. -/
theorem one_eq : Ideal.ofBits .f32 0x3F800000#32 = 1 :=
  IdealRules.sign_bit.ideal_onePat .f32

/-- The greatest score of the row, taken from −∞. -/
def rowMax (s : Fin n → EReal) : EReal :=
  (Finset.univ : Finset (Fin n)).fold max (Ideal.ofBits .f32 0xFF800000#32) s

/-- The exponential of a score's distance below the row's greatest. -/
def rowExp (s : Fin n → EReal) (k : Fin n) : EReal := Ideal.exp (s k - rowMax s)

/-- The sum of the row's exponentials. -/
def rowSum (s : Fin n → EReal) : EReal := ∑ k : Fin n, rowExp s k

/-- A weight by the reciprocal: the exponential times 1 / Σ. -/
def weightMul (s : Fin n → EReal) (k : Fin n) : EReal :=
  rowExp s k * Ideal.div (Ideal.ofBits .f32 0x3F800000#32) (rowSum s)

/-- A context entry by the reciprocal: the sum of exponential · value, times 1 / Σ. -/
def contextMul (s e : Fin n → EReal) : EReal :=
  (∑ k : Fin n, rowExp s k * e k) * Ideal.div (Ideal.ofBits .f32 0x3F800000#32) (rowSum s)

/-- A weight by the quotient: the exponential divided by Σ. -/
def weightDiv (s : Fin n → EReal) (k : Fin n) : EReal := Ideal.div (rowExp s k) (rowSum s)

/-- A context entry by the quotient: the sum of weight · value. -/
def contextDiv (s e : Fin n → EReal) : EReal := ∑ k : Fin n, weightDiv s k * e k

/-- The inclusion of the reals in the extended reals carries a finite sum to the sum. -/
theorem coe_sum {ι : Type} (t : Finset ι) (f : ι → ℝ) :
    ((∑ i ∈ t, f i : ℝ) : EReal) = ∑ i ∈ t, (f i : EReal) := by
  classical
  refine Finset.induction_on t (by simp) (fun a t ha ih => ?_)
  rw [Finset.sum_insert ha, Finset.sum_insert ha, EReal.coe_add, ih]

/-- The greatest of finitely many real scores, at least one of them, taken from −∞, is a real number: it lies above the
    first score and below +∞. -/
theorem rowMax_real (hn : 0 < n) (S : Fin n → ℝ) : ∃ M : ℝ, rowMax (fun k => (S k : EReal)) = (M : EReal) := by
  have hlt : rowMax (fun k => (S k : EReal)) < ⊤ := by
    unfold rowMax
    rw [Finset.fold_max_lt, negInf_eq_bot]
    exact ⟨bot_lt_top, fun k _ => EReal.coe_lt_top _⟩
  have hgt : ⊥ < rowMax (fun k => (S k : EReal)) := by
    refine lt_of_lt_of_le (EReal.bot_lt_coe (S ⟨0, hn⟩)) ?_
    unfold rowMax
    rw [Finset.le_fold_max]
    exact Or.inr ⟨⟨0, hn⟩, Finset.mem_univ _, le_rfl⟩
  exact ⟨_, (EReal.coe_toReal hlt.ne hgt.ne').symm⟩

/-- A row of real scores: every exponential is a real number and their sum is a positive real. -/
theorem real_row (hn : 0 < n) (S : Fin n → ℝ) :
    ∃ (P : Fin n → ℝ) (L : ℝ), 0 < L ∧ (∀ k, rowExp (fun k => (S k : EReal)) k = (P k : EReal))
      ∧ rowSum (fun k => (S k : EReal)) = (L : EReal) := by
  obtain ⟨M, hM⟩ := rowMax_real hn S
  have hP : ∀ k, rowExp (fun k => (S k : EReal)) k = ((Real.exp (S k - M) : ℝ) : EReal) := by
    intro k
    unfold rowExp
    rw [hM]
    show Ideal.exp ((S k : EReal) - (M : EReal)) = _
    rw [← EReal.coe_sub, Ideal.exp_coe]
  refine ⟨fun k => Real.exp (S k - M), ∑ k : Fin n, Real.exp (S k - M), ?_, hP, ?_⟩
  · haveI : Nonempty (Fin n) := ⟨⟨0, hn⟩⟩
    exact Finset.sum_pos (fun k _ => Real.exp_pos _) Finset.univ_nonempty
  · unfold rowSum
    rw [coe_sum]
    exact Finset.sum_congr rfl fun k _ => hP k

/-- With real scores the two arrangements of a weight agree: dividing by the positive real Σ is multiplying by 1 / Σ. -/
theorem weight_eq (hn : 0 < n) (s : Fin n → EReal) (hs : ∀ k, ∃ r : ℝ, s k = (r : EReal)) (k : Fin n) :
    weightMul s k = weightDiv s k := by
  choose S hS using hs
  obtain rfl : s = fun k => (S k : EReal) := funext hS
  obtain ⟨P, L, hL, hP, hsum⟩ := real_row hn S
  unfold weightMul weightDiv
  rw [hsum, Ideal.div_coe hL.ne', Ideal.div_coe hL.ne', one_eq, one_mul]

/-- With real scores and real values the two arrangements of a context entry agree: every term is a real number, and
    over the reals the factor 1 / Σ moves inside the sum. -/
theorem context_eq (hn : 0 < n) (s e : Fin n → EReal) (hs : ∀ k, ∃ r : ℝ, s k = (r : EReal))
    (he : ∀ k, ∃ r : ℝ, e k = (r : EReal)) : contextMul s e = contextDiv s e := by
  choose S hS using hs
  choose E hE using he
  obtain rfl : s = fun k => (S k : EReal) := funext hS
  obtain rfl : e = fun k => (E k : EReal) := funext hE
  obtain ⟨P, L, hL, hP, hsum⟩ := real_row hn S
  have hl : (∑ k : Fin n, rowExp (fun k => (S k : EReal)) k * (E k : EReal)) = ((∑ k : Fin n, P k * E k : ℝ) : EReal) := by
    rw [coe_sum]
    exact Finset.sum_congr rfl fun k _ => by rw [hP k, EReal.coe_mul]
  have hr : (∑ k : Fin n, Ideal.div (rowExp (fun k => (S k : EReal)) k) (L : EReal) * (E k : EReal))
      = ((∑ k : Fin n, P k * (1 / L) * E k : ℝ) : EReal) := by
    rw [coe_sum]
    exact Finset.sum_congr rfl fun k _ => by rw [hP k, Ideal.div_coe hL.ne', EReal.coe_mul, EReal.coe_mul]
  show (∑ k : Fin n, rowExp (fun k => (S k : EReal)) k * (E k : EReal))
        * Ideal.div (Ideal.ofBits .f32 0x3F800000#32) (rowSum (fun k => (S k : EReal)))
      = ∑ k : Fin n, Ideal.div (rowExp (fun k => (S k : EReal)) k) (rowSum (fun k => (S k : EReal))) * (E k : EReal)
  rw [hsum, hl, hr, Ideal.div_coe hL.ne', one_eq, one_mul, ← EReal.coe_mul, Finset.sum_mul]
  exact congrArg _ (Finset.sum_congr rfl fun k _ => by ring)

end Cert.RowSoftmax

end
-- ==== Proof.Spec.lean ====
/-
  Dot-product attention over whole arrays, on the extended reals.

  The queries are an array dec[b, q, d] (8 × 2048 × 128) and the keys, which are also the values, an array enc[b, k, d]
  (8 × 4096 × 128). Row (b, q) has the scores s k = Σ_d dec[b, q, d] · enc[b, k, d]; the attention array holds the row's
  weights, attn[b, q, k], and the context array holds ctx[b, q, d] = Σ_k attn[b, q, k] · enc[b, k, d]. Both arrays are
  written here in the two arrangements of a row (by the reciprocal of the row's sum, or by the quotient), and the
  arrangements agree when every entry of both arrays is a real number: the scores are then real numbers as well.
-/
import proofs.«169890_j49331994362117_2_alg».proof.Proof.RowSoftmax
import Idealize.ShloMosaic.Lib.ValueIdx

noncomputable section

namespace Cert.Attention

open Idealize.ShloMosaic Idealize.ShloMosaic.ValueIdx Cert.RowSoftmax

/-- The shape of the queries, and of the context. -/
abbrev SDec : Shape := ⟨3, ![8, 2048, 128]⟩
/-- The shape of the keys, which are the values. -/
abbrev SEnc : Shape := ⟨3, ![8, 4096, 128]⟩
/-- The shape of the attention weights. -/
abbrev SAttn : Shape := ⟨3, ![8, 2048, 4096]⟩

/-- The scores of row (b, q): against key k, the sum over d of dec[b, q, d] · enc[b, k, d]. -/
def scoreRow (dec : SDec.Idx → EReal) (enc : SEnc.Idx → EReal) (b : Fin 8) (q : Fin 2048) : Fin 4096 → EReal :=
  fun k => ∑ d : Fin 128, dec (ix3 b q d) * enc (ix3 b k d)

/-- Column d of batch b's values: enc[b, ·, d]. -/
def valueCol (enc : SEnc.Idx → EReal) (b : Fin 8) (d : Fin 128) : Fin 4096 → EReal := fun k => enc (ix3 b k d)

/-- The attention weights, each exponential times the reciprocal of its row's sum. -/
def attnMul (dec : SDec.Idx → EReal) (enc : SEnc.Idx → EReal) : SAttn.Idx → EReal :=
  fun i => weightMul (scoreRow dec enc (i 0) (i 1)) (i 2)

/-- The context, each row's sum of exponential · value times the reciprocal of the row's sum. -/
def ctxMul (dec : SDec.Idx → EReal) (enc : SEnc.Idx → EReal) : SDec.Idx → EReal :=
  fun i => contextMul (scoreRow dec enc (i 0) (i 1)) (valueCol enc (i 0) (i 2))

/-- The attention weights, each exponential divided by its row's sum. -/
def attnDiv (dec : SDec.Idx → EReal) (enc : SEnc.Idx → EReal) : SAttn.Idx → EReal :=
  fun i => weightDiv (scoreRow dec enc (i 0) (i 1)) (i 2)

/-- The context, each row's sum of weight · value. -/
def ctxDiv (dec : SDec.Idx → EReal) (enc : SEnc.Idx → EReal) : SDec.Idx → EReal :=
  fun i => contextDiv (scoreRow dec enc (i 0) (i 1)) (valueCol enc (i 0) (i 2))

variable {dec : SDec.Idx → EReal} {enc : SEnc.Idx → EReal}

/-- Real queries and keys have real scores: a finite sum of products of reals. -/
theorem scoreRow_real (hdec : ∀ i, ∃ r : ℝ, dec i = (r : EReal)) (henc : ∀ i, ∃ r : ℝ, enc i = (r : EReal))
    (b : Fin 8) (q : Fin 2048) (k : Fin 4096) : ∃ r : ℝ, scoreRow dec enc b q k = (r : EReal) := by
  choose A hA using hdec
  choose B hB using henc
  refine ⟨∑ d : Fin 128, A (ix3 b q d) * B (ix3 b k d), ?_⟩
  unfold scoreRow
  rw [coe_sum]
  exact Finset.sum_congr rfl fun d _ => by rw [hA, hB, EReal.coe_mul]

/-- On real arrays the two arrangements of the attention weights are one array. -/
theorem attn_eq (hdec : ∀ i, ∃ r : ℝ, dec i = (r : EReal)) (henc : ∀ i, ∃ r : ℝ, enc i = (r : EReal)) :
    attnMul dec enc = attnDiv dec enc :=
  funext fun i => weight_eq (by norm_num) _ (scoreRow_real hdec henc (i 0) (i 1)) (i 2)

/-- On real arrays the two arrangements of the context are one array. -/
theorem ctx_eq (hdec : ∀ i, ∃ r : ℝ, dec i = (r : EReal)) (henc : ∀ i, ∃ r : ℝ, enc i = (r : EReal)) :
    ctxMul dec enc = ctxDiv dec enc :=
  funext fun i => context_eq (by norm_num) _ _ (scoreRow_real hdec henc (i 0) (i 1)) (fun k => henc _)

end Cert.Attention

end
-- ==== Proof.RefValue.lean ====
/-
  The reference program read one operation at a time: it computes the attention arrays in their quotient arrangement.

  Its scores are the product of queries and keys contracted over the features; the row maximum is a reduction from −∞
  (joined once more with −∞, which changes nothing: the reduction already lies above −∞); the exponentials of the
  distances below the maximum are summed from 0 along the keys; each exponential is divided by its row's sum; and the
  context is the product of those weights with the values contracted over the keys.
-/
import proofs.«169890_j49331994362117_2_alg».proof.Proof.Gen.ReferenceIdeal.Read
import proofs.«169890_j49331994362117_2_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.RowSoftmax Cert.Attention

/-- Row (b, q) with key k put back is the entry (b, q, k). -/
theorem lift_keys (h : S8x2048x4096.Reduces [2] S8x2048) (b : Fin 8) (q : Fin 2048) (k : Fin 4096) :
    h.lift (ix2 b q) k = ix3 b q k := by
  funext c; apply Fin.ext
  fin_cases c <;> rfl

/-- The scores stage at (b, q, k): the sum over the features of query · key. -/
theorem scores_stage (x0 : (⟨S8x2048x128, .f32⟩ : BufTy).Contents (Elt Ideal)) (x1 : (⟨S8x4096x128, .f32⟩ : BufTy).Contents (Elt Ideal)) (b : Fin 8) (q : Fin 2048) (k : Fin 4096) :
    val_main_v0 (F := Ideal) x0 x1 (ix3 b q k) = scoreRow x0 x1 b q k :=
  (val_main_v0_apply x0 x1 (ix3 b q k)).trans (Finset.sum_congr rfl fun d _ => by
    rw [show lidx_main_v0 (ix3 b q k) d = ix3 b q d from funext fun a => Fin.ext (by match a with | ⟨0, _⟩ => rfl | ⟨1, _⟩ => rfl | ⟨2, _⟩ => rfl),
      show ridx_main_v0 (ix3 b q k) d = ix3 b k d from funext fun a => Fin.ext (by match a with | ⟨0, _⟩ => rfl | ⟨1, _⟩ => rfl | ⟨2, _⟩ => rfl)])

/-- The maximum stage at row (b, q): the row's greatest score. The reduction from −∞ is the fold of the maximum over
    the keys; joining it with −∞ again leaves it, since the fold lies above its starting value. -/
theorem max_stage (x0 : (⟨S8x2048x128, .f32⟩ : BufTy).Contents (Elt Ideal)) (x1 : (⟨S8x4096x128, .f32⟩ : BufTy).Contents (Elt Ideal)) (b : Fin 8) (q : Fin 2048) :
    val_main_v3 (F := Ideal) x0 x1 (ix2 b q) = rowMax (scoreRow x0 x1 b q) := by
  have hR : S8x2048x4096.Reduces [2] S8x2048 := by decide
  have h1 : val_main_v1 (F := Ideal) x0 x1 (ix2 b q) = rowMax (scoreRow x0 x1 b q) := by
    unfold val_main_v1
    refine (Host.reduce_eq_fold_single (α := Ideal .f32) (FloatOps.maximumf (F := Ideal) (φ := .f32))
      (val_main_v0 (F := Ideal) x0 x1 : S8x2048x4096.Idx → Ideal .f32) (val_main_cst (F := Ideal) : S_.Idx → Ideal .f32)
      reducesTo_S8x2048x4096_S8x2048_d2 hR h_S_ (ix2 b q)).trans ?_
    exact congrArg (fun f : Fin 4096 → EReal => (Finset.univ : Finset (Fin 4096)).fold max (Ideal.ofBits .f32 0xFF800000#32) f)
      (funext fun k => (congrArg (val_main_v0 (F := Ideal) x0 x1) (lift_keys hR b q k)).trans (scores_stage x0 x1 b q k))
  rw [val_main_v3_apply, val_main_v2_apply, val_main_cst_0_apply, h1]
  show max (Ideal.ofBits .f32 0xFF800000#32) (rowMax (scoreRow x0 x1 b q)) = rowMax (scoreRow x0 x1 b q)
  refine max_eq_right ?_
  unfold rowMax
  rw [Finset.le_fold_max]
  exact Or.inl le_rfl

/-- The exponential stage at (b, q, k): the row's exponential for key k. -/
theorem exp_stage (x0 : (⟨S8x2048x128, .f32⟩ : BufTy).Contents (Elt Ideal)) (x1 : (⟨S8x4096x128, .f32⟩ : BufTy).Contents (Elt Ideal)) (b : Fin 8) (q : Fin 2048) (k : Fin 4096) :
    val_main_v7 (F := Ideal) x0 x1 (ix3 b q k) = rowExp (scoreRow x0 x1 b q) k := by
  have e : idx_main_v4 (idx_main_v5 (ix3 b q k)) = ix2 b q := funext fun a => Fin.ext (by match a with | ⟨0, _⟩ => rfl | ⟨1, _⟩ => rfl)
  rw [val_main_v7_apply, val_main_v6_apply, val_main_v5_apply, val_main_v4_apply, e, max_stage, scores_stage]
  rfl

/-- The sum stage at row (b, q): from 0, the sum of the row's exponentials. -/
theorem sum_stage (x0 : (⟨S8x2048x128, .f32⟩ : BufTy).Contents (Elt Ideal)) (x1 : (⟨S8x4096x128, .f32⟩ : BufTy).Contents (Elt Ideal)) (b : Fin 8) (q : Fin 2048) :
    val_main_v8 (F := Ideal) x0 x1 (ix2 b q) = rowSum (scoreRow x0 x1 b q) := by
  rw [val_main_v8_apply, val_main_cst_1_apply]
  show Ideal.ofBits .f32 0x00000000#32 + _ = _
  rw [Ideal.ofBits_zero_f32, zero_add]
  unfold rowSum
  refine Finset.sum_congr rfl fun k _ => ?_
  rw [show idx_main_v8 (ix2 b q) k = ix3 b q k from funext fun a => Fin.ext (by match a with | ⟨0, _⟩ => rfl | ⟨1, _⟩ => rfl | ⟨2, _⟩ => rfl)]
  exact exp_stage x0 x1 b q k

/-- The reference's attention result is the array of weights by the quotient. -/
theorem attn_stage (x0 : (⟨S8x2048x128, .f32⟩ : BufTy).Contents (Elt Ideal)) (x1 : (⟨S8x4096x128, .f32⟩ : BufTy).Contents (Elt Ideal)) : val_main_v11 (F := Ideal) x0 x1 = attnDiv x0 x1 := by
  funext i
  obtain ⟨b, q, k, rfl⟩ : ∃ (b : Fin 8) (q : Fin 2048) (k : Fin 4096), i = ix3 b q k := ⟨i 0, i 1, i 2, eq_ix3 i⟩
  have e : idx_main_v9 (idx_main_v10 (ix3 b q k)) = ix2 b q := funext fun a => Fin.ext (by match a with | ⟨0, _⟩ => rfl | ⟨1, _⟩ => rfl)
  rw [val_main_v11_apply, val_main_v10_apply, val_main_v9_apply, e, sum_stage, exp_stage]
  rfl

/-- The reference's context result is the array of sums of weight · value. -/
theorem ctx_stage (x0 : (⟨S8x2048x128, .f32⟩ : BufTy).Contents (Elt Ideal)) (x1 : (⟨S8x4096x128, .f32⟩ : BufTy).Contents (Elt Ideal)) : val_main_v12 (F := Ideal) x0 x1 = ctxDiv x0 x1 := by
  funext i
  obtain ⟨b, q, d, rfl⟩ : ∃ (b : Fin 8) (q : Fin 2048) (d : Fin 128), i = ix3 b q d := ⟨i 0, i 1, i 2, eq_ix3 i⟩
  rw [val_main_v12_apply, attn_stage]
  show _ = contextDiv (scoreRow x0 x1 b q) (valueCol x1 b d)
  unfold contextDiv
  refine Finset.sum_congr rfl fun k _ => ?_
  rw [show lidx_main_v12 (ix3 b q d) k = ix3 b q k from funext fun a => Fin.ext (by match a with | ⟨0, _⟩ => rfl | ⟨1, _⟩ => rfl | ⟨2, _⟩ => rfl),
    show ridx_main_v12 (ix3 b q d) k = ix3 b k d from funext fun a => Fin.ext (by match a with | ⟨0, _⟩ => rfl | ⟨1, _⟩ => rfl | ⟨2, _⟩ => rfl)]
  rfl

end Cert.ReferenceIdeal.RefValue

end
-- ==== Proof.KernelPayload.lean ====
/-
  What the kernel's body computes for one block, entry by entry.

  A block is 256 consecutive query rows of one batch entry together with all 4096 keys of that entry. From it the body
  forms the block's scores (a product contracted over the 128 features), subtracts each row's greatest score, takes
  exponentials, sums each row, and multiplies the exponentials, and the product of the exponentials with the values, by
  the reciprocal of the row's sum. Read at an entry, each stored value is the row arithmetic of RowSoftmax in its
  reciprocal arrangement, the row's scores being the sums over the features of query · key. A change of float format is
  the identity on the extended reals, so the narrowed operands of the two products are the operands themselves.
-/
import proofs.«169890_j49331994362117_2_alg».proof.Proof.Gen.KernelIdeal.Skeleton
import proofs.«169890_j49331994362117_2_alg».proof.Proof.RowSoftmax
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx Cert.RowSoftmax

/-! ## Kept unit axes and broadcasts, read at an entry -/

/-- The per-row vector [1, 256] given a trailing unit axis, read at (0, q, 0), is its entry (0, q). -/
theorem cast_col_apply (v : FVec Ideal S1x256 .f32) (h : S1x256.ShapeCasts S1x256x1) (q : Fin 256) :
    shapeCast S1x256x1 v h (ix3 (0 : Fin 1) q (0 : Fin 1)) = v (ix2 (0 : Fin 1) q) :=
  shapeCast_apply v h (ix3 (0 : Fin 1) q (0 : Fin 1)) (ix2 (0 : Fin 1) q) (by
    rw [Shape.rowMajor_val_two, Shape.rowMajor_val_three]
    show 0 * 256 + q.val = (0 * 256 + q.val) * 1 + 0
    omega)

/-- A per-row column [1, 256, 1] spread along the 4096 keys, read at (0, q, k), is the column's entry of row q. -/
theorem bcast_keys_apply (w : FVec Ideal S1x256x1 .f32) (h : S1x256x1.Broadcasts S1x256x4096) (q : Fin 256) (k : Fin 4096) :
    broadcastTo S1x256x4096 w h (ix3 (0 : Fin 1) q k) = w (ix3 (0 : Fin 1) q (0 : Fin 1)) :=
  broadcastTo_apply w h (ix3 (0 : Fin 1) q k) (ix3 (0 : Fin 1) q (0 : Fin 1)) (fun a => match a with
    | ⟨0, _⟩ => by show 0 = (if (1 : Nat) = 1 then 0 else 0); rw [if_pos rfl]
    | ⟨1, _⟩ => by show q.val = (if (256 : Nat) = 1 then 0 else q.val); rw [if_neg (by decide)]
    | ⟨2, _⟩ => by show 0 = (if (1 : Nat) = 1 then 0 else k.val); rw [if_pos rfl])

/-- The same column spread along the 128 features, read at (0, q, d). -/
theorem bcast_feat_apply (w : FVec Ideal S1x256x1 .f32) (h : S1x256x1.Broadcasts S1x256x128) (q : Fin 256) (d : Fin 128) :
    broadcastTo S1x256x128 w h (ix3 (0 : Fin 1) q d) = w (ix3 (0 : Fin 1) q (0 : Fin 1)) :=
  broadcastTo_apply w h (ix3 (0 : Fin 1) q d) (ix3 (0 : Fin 1) q (0 : Fin 1)) (fun a => match a with
    | ⟨0, _⟩ => by show 0 = (if (1 : Nat) = 1 then 0 else 0); rw [if_pos rfl]
    | ⟨1, _⟩ => by show q.val = (if (256 : Nat) = 1 then 0 else q.val); rw [if_neg (by decide)]
    | ⟨2, _⟩ => by show 0 = (if (1 : Nat) = 1 then 0 else d.val); rw [if_pos rfl])

/-! ## The two reductions along the keys -/

/-- Row (0, q) with key k put back is the entry (0, q, k). -/
theorem lift_keys (h : S1x256x4096.Reduces [2] S1x256) (q : Fin 256) (k : Fin 4096) :
    h.lift (ix2 (0 : Fin 1) q) k = ix3 (0 : Fin 1) q k := by
  funext c; apply Fin.ext
  fin_cases c <;> rfl

/-- The reduction by maximum along the keys, from −∞, read at row (0, q): the row's greatest entry. -/
theorem rowmax_apply (v : FVec Ideal S1x256x4096 .f32) (h : S1x256x4096.Reduces [2] S1x256) (hφ : FKind.Formats .f32)
    (hacc : (0xFF800000#32 : BitVec 32) = FKind.maximumf.neutral .f32 hφ) (q : Fin 256) :
    multiReduction .maximumf [2] S1x256 v 0xFF800000#32 h hφ hacc (ix2 (0 : Fin 1) q)
      = rowMax (fun k : Fin 4096 => v (ix3 (0 : Fin 1) q k)) :=
  (Ideal.multiReduction_maximumf_single v 0xFF800000#32 h hφ hacc (ix2 (0 : Fin 1) q)).trans
    (congrArg (fun f : Fin 4096 → EReal => (Finset.univ : Finset (Fin 4096)).fold max (Ideal.ofBits .f32 0xFF800000#32) f)
      (funext fun k => congrArg v (lift_keys h q k)))

/-- The reduction by sum along the keys read at row (0, q): the sum of the row's entries. -/
theorem rowsum_apply (v : FVec Ideal S1x256x4096 .f32) (h : S1x256x4096.Reduces [2] S1x256) (hφ : FKind.Formats .f32)
    (hacc : (0x00000000#32 : BitVec 32) = FKind.add.neutral .f32 hφ) (q : Fin 256) :
    multiReduction .add [2] S1x256 v 0x00000000#32 h hφ hacc (ix2 (0 : Fin 1) q) = ∑ k : Fin 4096, v (ix3 (0 : Fin 1) q k) :=
  (Ideal.multiReduction_add_single v 0x00000000#32 h hφ hacc (ix2 (0 : Fin 1) q)).trans
    (Finset.sum_congr rfl fun k _ => congrArg v (lift_keys h q k))

/-! ## The two products read at an entry

The first contracts the features of a query row against the features of a key; the second contracts the keys of a row of
exponentials against a column of values. Each operand index of the product at an output entry is that entry's batch and
free coordinates with the contraction coordinate put in its place. -/

theorem qk_lhs0 (i : S1x256x4096.Idx) (c : dot_S1x256x128_S1x4096x128_S1x256x4096_2_2_1_1_0_0.contr.Idx) :
    (dot_S1x256x128_S1x4096x128_S1x256x4096_2_2_1_1_0_0.lhsIdx i c 0).val = (i 0).val := by
  unfold DotDims.lhsIdx
  rw [dif_pos (show (0 : Fin S1x256x128.rank) ∈ dot_S1x256x128_S1x4096x128_S1x256x4096_2_2_1_1_0_0.lhsBatch by decide)]
  rfl
theorem qk_lhs1 (i : S1x256x4096.Idx) (c : dot_S1x256x128_S1x4096x128_S1x256x4096_2_2_1_1_0_0.contr.Idx) :
    (dot_S1x256x128_S1x4096x128_S1x256x4096_2_2_1_1_0_0.lhsIdx i c 1).val = (i 1).val := by
  unfold DotDims.lhsIdx
  rw [dif_neg (show ¬(1 : Fin S1x256x128.rank) ∈ dot_S1x256x128_S1x4096x128_S1x256x4096_2_2_1_1_0_0.lhsBatch by decide), dif_pos (show (1 : Fin S1x256x128.rank) ∈ dot_S1x256x128_S1x4096x128_S1x256x4096_2_2_1_1_0_0.lhsNonContracting by decide)]
  rfl
theorem qk_lhs2 (i : S1x256x4096.Idx) (c : dot_S1x256x128_S1x4096x128_S1x256x4096_2_2_1_1_0_0.contr.Idx) :
    (dot_S1x256x128_S1x4096x128_S1x256x4096_2_2_1_1_0_0.lhsIdx i c 2).val = (c ⟨0, by decide⟩).val :=
  dot_S1x256x128_S1x4096x128_S1x256x4096_2_2_1_1_0_0.lhsIdx_val_of_single rfl i c
theorem qk_rhs0 (i : S1x256x4096.Idx) (c : dot_S1x256x128_S1x4096x128_S1x256x4096_2_2_1_1_0_0.contr.Idx) :
    (dot_S1x256x128_S1x4096x128_S1x256x4096_2_2_1_1_0_0.rhsIdx i c 0).val = (i 0).val := by
  unfold DotDims.rhsIdx
  rw [dif_pos (show (0 : Fin S1x4096x128.rank) ∈ dot_S1x256x128_S1x4096x128_S1x256x4096_2_2_1_1_0_0.rhsBatch by decide)]
  rfl
theorem qk_rhs1 (i : S1x256x4096.Idx) (c : dot_S1x256x128_S1x4096x128_S1x256x4096_2_2_1_1_0_0.contr.Idx) :
    (dot_S1x256x128_S1x4096x128_S1x256x4096_2_2_1_1_0_0.rhsIdx i c 1).val = (i 2).val := by
  unfold DotDims.rhsIdx
  rw [dif_neg (show ¬(1 : Fin S1x4096x128.rank) ∈ dot_S1x256x128_S1x4096x128_S1x256x4096_2_2_1_1_0_0.rhsBatch by decide), dif_pos (show (1 : Fin S1x4096x128.rank) ∈ dot_S1x256x128_S1x4096x128_S1x256x4096_2_2_1_1_0_0.rhsNonContracting by decide)]
  rfl
theorem qk_rhs2 (i : S1x256x4096.Idx) (c : dot_S1x256x128_S1x4096x128_S1x256x4096_2_2_1_1_0_0.contr.Idx) :
    (dot_S1x256x128_S1x4096x128_S1x256x4096_2_2_1_1_0_0.rhsIdx i c 2).val = (c ⟨0, by decide⟩).val :=
  dot_S1x256x128_S1x4096x128_S1x256x4096_2_2_1_1_0_0.rhsIdx_val_of_single rfl i c

/-- The block's scores: at (0, q, k) the sum over the features of query · key. -/
theorem scores_apply (a : FVec Ideal S1x256x128 .bf16) (b : FVec Ideal S1x4096x128 .bf16) (q : Fin 256) (k : Fin 4096) :
    matmul dot_S1x256x128_S1x4096x128_S1x256x4096_2_2_1_1_0_0 none a b (constant (F := Ideal) S1x256x4096 .f32 0x00000000#32) (ix3 (0 : Fin 1) q k)
      = ∑ d : Fin 128, a (ix3 (0 : Fin 1) q d) * b (ix3 (0 : Fin 1) k d) := by
  refine (Ideal.matmul_constant_zero_apply dot_S1x256x128_S1x4096x128_S1x256x4096_2_2_1_1_0_0 none a b (ix3 (0 : Fin 1) q k)).trans ?_
  rw [← Equiv.sum_comp (ValueIdx.contrEquiv1 dot_S1x256x128_S1x4096x128_S1x256x4096_2_2_1_1_0_0 128 rfl rfl).symm]
  refine Finset.sum_congr rfl fun d _ => ?_
  have hk := ValueIdx.contrEquiv1_symm_val dot_S1x256x128_S1x4096x128_S1x256x4096_2_2_1_1_0_0 128 rfl rfl d
  have el : dot_S1x256x128_S1x4096x128_S1x256x4096_2_2_1_1_0_0.lhsIdx (ix3 (0 : Fin 1) q k) ((ValueIdx.contrEquiv1 dot_S1x256x128_S1x4096x128_S1x256x4096_2_2_1_1_0_0 128 rfl rfl).symm d) = ix3 (0 : Fin 1) q d :=
    funext fun c => Fin.ext (by
      match c with
      | ⟨0, _⟩ => exact qk_lhs0 _ _
      | ⟨1, _⟩ => exact qk_lhs1 _ _
      | ⟨2, _⟩ => exact (qk_lhs2 _ _).trans hk)
  have er : dot_S1x256x128_S1x4096x128_S1x256x4096_2_2_1_1_0_0.rhsIdx (ix3 (0 : Fin 1) q k) ((ValueIdx.contrEquiv1 dot_S1x256x128_S1x4096x128_S1x256x4096_2_2_1_1_0_0 128 rfl rfl).symm d) = ix3 (0 : Fin 1) k d :=
    funext fun c => Fin.ext (by
      match c with
      | ⟨0, _⟩ => exact qk_rhs0 _ _
      | ⟨1, _⟩ => exact qk_rhs1 _ _
      | ⟨2, _⟩ => exact (qk_rhs2 _ _).trans hk)
  rw [el, er]

theorem pv_lhs0 (i : S1x256x128.Idx) (c : dot_S1x256x4096_S1x4096x128_S1x256x128_2_1_1_2_0_0.contr.Idx) :
    (dot_S1x256x4096_S1x4096x128_S1x256x128_2_1_1_2_0_0.lhsIdx i c 0).val = (i 0).val := by
  unfold DotDims.lhsIdx
  rw [dif_pos (show (0 : Fin S1x256x4096.rank) ∈ dot_S1x256x4096_S1x4096x128_S1x256x128_2_1_1_2_0_0.lhsBatch by decide)]
  rfl
theorem pv_lhs1 (i : S1x256x128.Idx) (c : dot_S1x256x4096_S1x4096x128_S1x256x128_2_1_1_2_0_0.contr.Idx) :
    (dot_S1x256x4096_S1x4096x128_S1x256x128_2_1_1_2_0_0.lhsIdx i c 1).val = (i 1).val := by
  unfold DotDims.lhsIdx
  rw [dif_neg (show ¬(1 : Fin S1x256x4096.rank) ∈ dot_S1x256x4096_S1x4096x128_S1x256x128_2_1_1_2_0_0.lhsBatch by decide), dif_pos (show (1 : Fin S1x256x4096.rank) ∈ dot_S1x256x4096_S1x4096x128_S1x256x128_2_1_1_2_0_0.lhsNonContracting by decide)]
  rfl
theorem pv_lhs2 (i : S1x256x128.Idx) (c : dot_S1x256x4096_S1x4096x128_S1x256x128_2_1_1_2_0_0.contr.Idx) :
    (dot_S1x256x4096_S1x4096x128_S1x256x128_2_1_1_2_0_0.lhsIdx i c 2).val = (c ⟨0, by decide⟩).val :=
  dot_S1x256x4096_S1x4096x128_S1x256x128_2_1_1_2_0_0.lhsIdx_val_of_single rfl i c
theorem pv_rhs0 (i : S1x256x128.Idx) (c : dot_S1x256x4096_S1x4096x128_S1x256x128_2_1_1_2_0_0.contr.Idx) :
    (dot_S1x256x4096_S1x4096x128_S1x256x128_2_1_1_2_0_0.rhsIdx i c 0).val = (i 0).val := by
  unfold DotDims.rhsIdx
  rw [dif_pos (show (0 : Fin S1x4096x128.rank) ∈ dot_S1x256x4096_S1x4096x128_S1x256x128_2_1_1_2_0_0.rhsBatch by decide)]
  rfl
theorem pv_rhs1 (i : S1x256x128.Idx) (c : dot_S1x256x4096_S1x4096x128_S1x256x128_2_1_1_2_0_0.contr.Idx) :
    (dot_S1x256x4096_S1x4096x128_S1x256x128_2_1_1_2_0_0.rhsIdx i c 1).val = (c ⟨0, by decide⟩).val :=
  dot_S1x256x4096_S1x4096x128_S1x256x128_2_1_1_2_0_0.rhsIdx_val_of_single rfl i c
theorem pv_rhs2 (i : S1x256x128.Idx) (c : dot_S1x256x4096_S1x4096x128_S1x256x128_2_1_1_2_0_0.contr.Idx) :
    (dot_S1x256x4096_S1x4096x128_S1x256x128_2_1_1_2_0_0.rhsIdx i c 2).val = (i 2).val := by
  unfold DotDims.rhsIdx
  rw [dif_neg (show ¬(2 : Fin S1x4096x128.rank) ∈ dot_S1x256x4096_S1x4096x128_S1x256x128_2_1_1_2_0_0.rhsBatch by decide), dif_pos (show (2 : Fin S1x4096x128.rank) ∈ dot_S1x256x4096_S1x4096x128_S1x256x128_2_1_1_2_0_0.rhsNonContracting by decide)]
  rfl

/-- A block of row weights against the values: at (0, q, d) the sum over the keys of weight · value. -/
theorem values_apply (p : FVec Ideal S1x256x4096 .bf16) (b : FVec Ideal S1x4096x128 .bf16) (q : Fin 256) (d : Fin 128) :
    matmul dot_S1x256x4096_S1x4096x128_S1x256x128_2_1_1_2_0_0 none p b (constant (F := Ideal) S1x256x128 .f32 0x00000000#32) (ix3 (0 : Fin 1) q d)
      = ∑ k : Fin 4096, p (ix3 (0 : Fin 1) q k) * b (ix3 (0 : Fin 1) k d) := by
  refine (Ideal.matmul_constant_zero_apply dot_S1x256x4096_S1x4096x128_S1x256x128_2_1_1_2_0_0 none p b (ix3 (0 : Fin 1) q d)).trans ?_
  rw [← Equiv.sum_comp (ValueIdx.contrEquiv1 dot_S1x256x4096_S1x4096x128_S1x256x128_2_1_1_2_0_0 4096 rfl rfl).symm]
  refine Finset.sum_congr rfl fun k _ => ?_
  have hk := ValueIdx.contrEquiv1_symm_val dot_S1x256x4096_S1x4096x128_S1x256x128_2_1_1_2_0_0 4096 rfl rfl k
  have el : dot_S1x256x4096_S1x4096x128_S1x256x128_2_1_1_2_0_0.lhsIdx (ix3 (0 : Fin 1) q d) ((ValueIdx.contrEquiv1 dot_S1x256x4096_S1x4096x128_S1x256x128_2_1_1_2_0_0 4096 rfl rfl).symm k) = ix3 (0 : Fin 1) q k :=
    funext fun c => Fin.ext (by
      match c with
      | ⟨0, _⟩ => exact pv_lhs0 _ _
      | ⟨1, _⟩ => exact pv_lhs1 _ _
      | ⟨2, _⟩ => exact (pv_lhs2 _ _).trans hk)
  have er : dot_S1x256x4096_S1x4096x128_S1x256x128_2_1_1_2_0_0.rhsIdx (ix3 (0 : Fin 1) q d) ((ValueIdx.contrEquiv1 dot_S1x256x4096_S1x4096x128_S1x256x128_2_1_1_2_0_0 4096 rfl rfl).symm k) = ix3 (0 : Fin 1) k d :=
    funext fun c => Fin.ext (by
      match c with
      | ⟨0, _⟩ => exact pv_rhs0 _ _
      | ⟨1, _⟩ => exact (pv_rhs1 _ _).trans hk
      | ⟨2, _⟩ => exact pv_rhs2 _ _)
  rw [el, er]

/-! ## The body's stored values, entry by entry -/

/-- The scores of the block's row q: against key k, the sum over the features of x0[0, q, d] · x1[0, k, d]. -/
def blockScores (x0 : Vec Ideal S1x256x128 .f32) (x1 : Vec Ideal S1x4096x128 .f32) (q : Fin 256) : Fin 4096 → EReal :=
  fun k => ∑ d : Fin 128, x0 (ix3 (0 : Fin 1) q d) * x1 (ix3 (0 : Fin 1) k d)

/-- The exponentials the body forms, at (0, q, k): the row's exponential for key k. -/
theorem pay2_apply (x0 : Vec Ideal S1x256x128 .f32) (x1 : Vec Ideal S1x4096x128 .f32) (q : Fin 256) (k : Fin 4096) :
    k0_pay2 x0 x1 (ix3 (0 : Fin 1) q k) = rowExp (blockScores x0 x1 q) k := by
  have hs : (fun k' : Fin 4096 => matmul dot_S1x256x128_S1x4096x128_S1x256x4096_2_2_1_1_0_0 none (truncf .bf16 x0 Facts₀.bitsLt_bf16_f32) (k0_pay1 x1)
      (constant (F := Ideal) S1x256x4096 .f32 0x00000000#32) (ix3 (0 : Fin 1) q k')) = blockScores x0 x1 q :=
    funext fun k' => scores_apply _ _ q k'
  have hm := (bcast_keys_apply _ Facts₀.broadcasts_S1x256x1_S1x256x4096 q k).trans
    ((cast_col_apply _ Facts₀.shapeCasts_S1x256_S1x256x1 q).trans
      (rowmax_apply (matmul dot_S1x256x128_S1x4096x128_S1x256x4096_2_2_1_1_0_0 none (truncf .bf16 x0 Facts₀.bitsLt_bf16_f32) (k0_pay1 x1)
        (constant (F := Ideal) S1x256x4096 .f32 0x00000000#32)) Facts₀.reduces_S1x256x4096_S1x256 (.inl rfl) rfl q))
  rw [hs] at hm
  exact congrArg₂ (fun u v : EReal => Ideal.exp (u - v)) (scores_apply _ _ q k) hm

/-- The reciprocal the body forms, at (0, q, 0): one over the sum of row q's exponentials. -/
theorem pay3_apply (x0 : Vec Ideal S1x256x128 .f32) (x1 : Vec Ideal S1x4096x128 .f32) (q : Fin 256) :
    k0_pay3 x0 x1 (ix3 (0 : Fin 1) q (0 : Fin 1))
      = Ideal.div (Ideal.ofBits .f32 0x3F800000#32) (rowSum (blockScores x0 x1 q)) := by
  have hsum := (cast_col_apply _ Facts₀.shapeCasts_S1x256_S1x256x1 q).trans
    ((rowsum_apply (k0_pay2 x0 x1) Facts₀.reduces_S1x256x4096_S1x256 (.inl rfl) rfl q).trans
      (Finset.sum_congr rfl fun k _ => pay2_apply x0 x1 q k))
  exact congrArg (fun z : EReal => Ideal.div (Ideal.ofBits .f32 0x3F800000#32) z) hsum

/-- The stored attention weight at (0, q, k): the row's exponential times the reciprocal of the row's sum. -/
theorem pay4_apply (x0 : Vec Ideal S1x256x128 .f32) (x1 : Vec Ideal S1x4096x128 .f32) (q : Fin 256) (k : Fin 4096) :
    k0_pay4 x0 x1 (ix3 (0 : Fin 1) q k) = weightMul (blockScores x0 x1 q) k :=
  congrArg₂ (fun u v : EReal => u * v) (pay2_apply x0 x1 q k)
    ((bcast_keys_apply _ Facts₀.broadcasts_S1x256x1_S1x256x4096 q k).trans (pay3_apply x0 x1 q))

/-- The stored context entry at (0, q, d): the sum over the keys of exponential · value, times the reciprocal of the
    row's sum. -/
theorem pay5_apply (x0 : Vec Ideal S1x256x128 .f32) (x1 : Vec Ideal S1x4096x128 .f32) (q : Fin 256) (d : Fin 128) :
    k0_pay5 x0 x1 (ix3 (0 : Fin 1) q d)
      = contextMul (blockScores x0 x1 q) (fun k : Fin 4096 => x1 (ix3 (0 : Fin 1) k d)) :=
  congrArg₂ (fun u v : EReal => u * v)
    ((values_apply (truncf .bf16 (k0_pay2 x0 x1) Facts₀.bitsLt_bf16_f32) (k0_pay1 x1) q d).trans
      (Finset.sum_congr rfl fun k _ => congrArg (fun u : EReal => u * x1 (ix3 (0 : Fin 1) k d)) (pay2_apply x0 x1 q k)))
    ((bcast_feat_apply _ Facts₀.broadcasts_S1x256x1_S1x256x128 q d).trans (pay3_apply x0 x1 q))

end Cert.KernelIdeal.Block

end
-- ==== Proof.KernelValue.lean ====
/-
  From blocks to whole arrays: what the kernel leaves in its two result arrays.

  The grid has 8 × 8 points. Point (b, j) works on batch entry b and the 256 query rows j·256 … j·256 + 255: it is handed
  that block of the queries and all 4096 keys of entry b, and writes back the matching 256 × 128 block of the context
  and the matching 256 × 4096 block of the attention weights. An entry (0, q, ·) of a block is the entry
  (b, j·256 + q, ·) of its array, so the scores the body forms for the block's row q are the scores of row
  (b, j·256 + q) of the whole arrays, and what the point writes back is its block of the whole attention and context
  arrays in their reciprocal arrangement. The 64 blocks of either result tile it, so each result array ends as that whole
  array.
-/
import proofs.«169890_j49331994362117_2_alg».proof.Proof.Gen.KernelIdeal.Value
import proofs.«169890_j49331994362117_2_alg».proof.Proof.KernelPayload
import proofs.«169890_j49331994362117_2_alg».proof.Proof.Spec

noncomputable section

namespace Cert.KernelIdeal.ArrValue

open Cert.KernelIdeal Cert.KernelIdeal.Gen Cert.KernelIdeal.Block Idealize.ShloMosaic Idealize.ShloMosaic.TcCoe Idealize.SL.Sem
open Idealize.ShloMosaic.ValueIdx Cert.RowSoftmax Cert.Attention
open Idealize.ShloMosaic.Pipeline (Dat)

variable (m : (ℓ : Loc nD τ sig) → Buf (Elt Ideal) ℓ) (ρ : Dev nD → PrngReg)

/-- The body reads and writes every block from its origin. -/
theorem hz : (![0, 0, 0] : Fin 3 → Nat) = fun _ => 0 := funext fun a => by fin_cases a <;> rfl

/-- The four windows' block indices at a grid point, decided over the 64 points: the queries', the context's and the
    weights' blocks sit at (b, j, 0) for the same b ≤ 7 and j ≤ 7, and the keys' block at (b, 0, 0). -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = win0_3.index t (1 : Fin 3)
    ∧ win0_2.index t (2 : Fin 3) = 0
    ∧ win0_3.index t (2 : Fin 3) = 0 ∧ win0_3.index t (0 : Fin 3) ≤ 7 ∧ win0_3.index t (1 : Fin 3) ≤ 7 :=
  (by decide +kernel : ∀ t : Fin grid0.N, _)

/-- Every block (b, j, 0) of the weights is some point's. -/
theorem idx_onto3 : ∀ (b : Fin 8) (j : Fin 8), ∃ t : Fin cfg0.N, win0_3.index t = ![b.val, j.val, 0] :=
  (by decide +kernel : ∀ (b : Fin 8) (j : Fin 8), ∃ t : Fin grid0.N, win0_3.index t = ![b.val, j.val, 0])

/-- Every block (b, j, 0) of the context is some point's. -/
theorem idx_onto2 : ∀ (b : Fin 8) (j : Fin 8), ∃ t : Fin cfg0.N, win0_2.index t = ![b.val, j.val, 0] :=
  (by decide +kernel : ∀ (b : Fin 8) (j : Fin 8), ∃ t : Fin grid0.N, win0_2.index t = ![b.val, j.val, 0])

/-! ## The input blocks read at an entry -/

/-- Entry (0, q, d) of the point's block of queries is entry (b, j·256 + q, d) of the queries. -/
theorem iblk0_apply (c : Dev nD) (t : Fin cfg0.N) (B : Fin 8) (Q : Fin 2048) (q : Fin 256) (d : Fin 128)
    (h0 : win0_0.index t (0 : Fin 3) = B.val) (h1 : win0_0.index t (1 : Fin 3) * 256 + q.val = Q.val)
    (h2 : win0_0.index t (2 : Fin 3) = 0) :
    iblk m c 0 t (ix3 (0 : Fin 1) q d) = V m c main_arg0 (ix3 B Q d) := by
  show V m c main_arg0 (((cfg0.win 0).blk t).view.emb (ix3 (0 : Fin 1) q d)) = _
  refine congrArg _ (funext fun a => Fin.ext ?_)
  match a with
  | ⟨0, _⟩ => show win0_0.index t (0 : Fin 3) * 1 + 1 * 0 = B.val; omega
  | ⟨1, _⟩ => show win0_0.index t (1 : Fin 3) * 256 + 1 * q.val = Q.val; omega
  | ⟨2, _⟩ => show win0_0.index t (2 : Fin 3) * 128 + 1 * d.val = d.val; omega

/-- Entry (0, k, d) of the point's block of keys is entry (b, k, d) of the keys. -/
theorem iblk1_apply (c : Dev nD) (t : Fin cfg0.N) (B : Fin 8) (k : Fin 4096) (d : Fin 128)
    (h0 : win0_1.index t (0 : Fin 3) = B.val) (h1 : win0_1.index t (1 : Fin 3) = 0) (h2 : win0_1.index t (2 : Fin 3) = 0) :
    iblk m c 1 t (ix3 (0 : Fin 1) k d) = V m c main_arg1 (ix3 B k d) := by
  show V m c main_arg1 (((cfg0.win 1).blk t).view.emb (ix3 (0 : Fin 1) k d)) = _
  refine congrArg _ (funext fun a => Fin.ext ?_)
  match a with
  | ⟨0, _⟩ => show win0_1.index t (0 : Fin 3) * 1 + 1 * 0 = B.val; omega
  | ⟨1, _⟩ => show win0_1.index t (1 : Fin 3) * 4096 + 1 * k.val = k.val; omega
  | ⟨2, _⟩ => show win0_1.index t (2 : Fin 3) * 128 + 1 * d.val = d.val; omega

/-- So the scores of the block's row q are the scores of row (b, j·256 + q) of the whole arrays. -/
theorem scores_eq (c : Dev nD) (t : Fin cfg0.N) (B : Fin 8) (Q : Fin 2048) (q : Fin 256)
    (h00 : win0_0.index t (0 : Fin 3) = B.val) (h01 : win0_0.index t (1 : Fin 3) * 256 + q.val = Q.val)
    (h02 : win0_0.index t (2 : Fin 3) = 0)
    (h10 : win0_1.index t (0 : Fin 3) = B.val) (h11 : win0_1.index t (1 : Fin 3) = 0) (h12 : win0_1.index t (2 : Fin 3) = 0) :
    blockScores (iblk m c 0 t) (iblk m c 1 t) q = scoreRow (V m c main_arg0) (V m c main_arg1) B Q :=
  funext fun k => Finset.sum_congr rfl fun d _ =>
    congrArg₂ (fun u v : EReal => u * v) (iblk0_apply m c t B Q q d h00 h01 h02) (iblk1_apply m c t B k d h10 h11 h12)

/-! ## The attention weights -/

/-- What point t writes back to the weights is its block of the whole array of weights. -/
theorem flushed3_eq (c : Dev nD) (t : Fin cfg0.N) :
    (dats m 0 c).flushed 3 t
      = ((cfg0.win 3).blk t).view.read (Elt Ideal) (attnMul (V m c main_arg0) (V m c main_arg1)) := by
  rw [Value.flushed3]
  unfold out0_3
  rw [View.canon_unit_zero hz]
  simp only [View.ld_unit_zero (S := S1x256x128) hz, View.ld_unit_zero (S := S1x4096x128) hz]
  obtain ⟨e00, e01, e02, e10, e11, e12, e20, e21, e22, e32, b0, b1⟩ := idx_facts t
  refine funext fun (y : S1x256x4096.Idx) => ?_
  obtain ⟨a, q, k, rfl⟩ : ∃ (a : Fin 1) (q : Fin 256) (k : Fin 4096), y = ix3 a q k := ⟨y 0, y 1, y 2, eq_ix3 y⟩
  obtain rfl : a = 0 := Subsingleton.elim _ _
  have hq : q.val < 256 := q.isLt
  obtain ⟨B, hB⟩ : ∃ B : Fin 8, win0_3.index t (0 : Fin 3) = B.val := ⟨⟨win0_3.index t (0 : Fin 3), by omega⟩, rfl⟩
  obtain ⟨Q, hQ⟩ : ∃ Q : Fin 2048, win0_3.index t (1 : Fin 3) * 256 + q.val = Q.val :=
    ⟨⟨win0_3.index t (1 : Fin 3) * 256 + q.val, by omega⟩, rfl⟩
  have hemb : ((cfg0.win 3).blk t).view.emb (ix3 (0 : Fin 1) q k) = ix3 B Q k := funext fun a => Fin.ext (by
    match a with
    | ⟨0, _⟩ => show win0_3.index t (0 : Fin 3) * 1 + 1 * 0 = B.val; omega
    | ⟨1, _⟩ => show win0_3.index t (1 : Fin 3) * 256 + 1 * q.val = Q.val; omega
    | ⟨2, _⟩ => show win0_3.index t (2 : Fin 3) * 4096 + 1 * k.val = k.val; omega)
  show k0_pay4 (iblk m c 0 t) (iblk m c 1 t) (ix3 (0 : Fin 1) q k)
    = attnMul (V m c main_arg0) (V m c main_arg1) (((cfg0.win 3).blk t).view.emb (ix3 (0 : Fin 1) q k))
  rw [hemb]
  refine (pay4_apply (iblk m c 0 t) (iblk m c 1 t) q k).trans ?_
  exact congrArg (fun s : Fin 4096 → EReal => weightMul s k)
    (scores_eq m c t B Q q (by omega) (by omega) e02 (by omega) e11 e12)

/-- An entry of the weights lies in point t's block iff each coordinate lies in the block's range on its axis. -/
theorem mem_blk3 (t : Fin cfg0.N) (i : S8x2048x4096.Idx) :
    i ∈ ((cfg0.win 3).blk t).view.set ↔ ∀ a : Fin 3, win0_3.index t a * S1x256x4096.size a ≤ (i a).val
      ∧ (i a).val < win0_3.index t a * S1x256x4096.size a + S1x256x4096.size a := by
  show i ∈ ((View.whole main_v0_1).slice (win0_3.rect t)).set ↔ _
  rw [View.set_slice_whole, Rect.mem_set_unit]
  exact Iff.rfl

/-- Every entry (b, r, k) of the weights lies in the block of the point with block index (b, r / 256, 0). -/
theorem cover3 (i : S8x2048x4096.Idx) :
    ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 4096 := (i 2).isLt
  obtain ⟨t, ht⟩ := idx_onto3 ⟨(i 0).val, by omega⟩ ⟨(i 1).val / 256, by omega⟩
  have q0 : win0_3.index t (0 : Fin 3) = (i 0).val := congrFun ht 0
  have q1 : win0_3.index t (1 : Fin 3) = (i 1).val / 256 := congrFun ht 1
  have q2 : win0_3.index t (2 : Fin 3) = 0 := congrFun ht 2
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 4096 ≤ (i 2).val ∧ (i 2).val < win0_3.index t (2 : Fin 3) * 4096 + 4096; omega

/-- After the run the weights' array is the whole array of weights, of the arguments as launched. -/
theorem final3 (c : Dev nD) :
    (dats m 0 c).arrAt 3 cfg0.N = attnMul (m ((c : Thread nD τ).loc main_arg0)) (m ((c : Thread nD τ).loc main_arg1)) :=
  (dats m 0 c).arrAt_eq_of_cover 3 (attnMul (V m c main_arg0) (V m c main_arg1)) (fun t _ => flushed3_eq m c t) cover3

/-! ## The context -/

/-- What point t writes back to the context is its block of the whole context array. -/
theorem flushed2_eq (c : Dev nD) (t : Fin cfg0.N) :
    (dats m 0 c).flushed 2 t
      = ((cfg0.win 2).blk t).view.read (Elt Ideal) (ctxMul (V m c main_arg0) (V m c main_arg1)) := by
  rw [Value.flushed2]
  unfold out0_2
  rw [View.canon_unit_zero hz]
  simp only [View.ld_unit_zero (S := S1x256x128) hz, View.ld_unit_zero (S := S1x4096x128) hz]
  obtain ⟨e00, e01, e02, e10, e11, e12, e20, e21, e22, e32, b0, b1⟩ := idx_facts t
  refine funext fun (y : S1x256x128.Idx) => ?_
  obtain ⟨a, q, d, rfl⟩ : ∃ (a : Fin 1) (q : Fin 256) (d : Fin 128), y = ix3 a q d := ⟨y 0, y 1, y 2, eq_ix3 y⟩
  obtain rfl : a = 0 := Subsingleton.elim _ _
  have hq : q.val < 256 := q.isLt
  obtain ⟨B, hB⟩ : ∃ B : Fin 8, win0_3.index t (0 : Fin 3) = B.val := ⟨⟨win0_3.index t (0 : Fin 3), by omega⟩, rfl⟩
  obtain ⟨Q, hQ⟩ : ∃ Q : Fin 2048, win0_3.index t (1 : Fin 3) * 256 + q.val = Q.val :=
    ⟨⟨win0_3.index t (1 : Fin 3) * 256 + q.val, by omega⟩, rfl⟩
  have hemb : ((cfg0.win 2).blk t).view.emb (ix3 (0 : Fin 1) q d) = ix3 B Q d := funext fun a => Fin.ext (by
    match a with
    | ⟨0, _⟩ => show win0_2.index t (0 : Fin 3) * 1 + 1 * 0 = B.val; omega
    | ⟨1, _⟩ => show win0_2.index t (1 : Fin 3) * 256 + 1 * q.val = Q.val; omega
    | ⟨2, _⟩ => show win0_2.index t (2 : Fin 3) * 128 + 1 * d.val = d.val; omega)
  show k0_pay5 (iblk m c 0 t) (iblk m c 1 t) (ix3 (0 : Fin 1) q d)
    = ctxMul (V m c main_arg0) (V m c main_arg1) (((cfg0.win 2).blk t).view.emb (ix3 (0 : Fin 1) q d))
  rw [hemb]
  refine (pay5_apply (iblk m c 0 t) (iblk m c 1 t) q d).trans ?_
  exact congrArg₂ (fun (s e : Fin 4096 → EReal) => contextMul s e)
    (scores_eq m c t B Q q (by omega) (by omega) e02 (by omega) e11 e12)
    (funext fun k => iblk1_apply m c t B k d (by omega) e11 e12)

/-- An entry of the context lies in point t's block iff each coordinate lies in the block's range on its axis. -/
theorem mem_blk2 (t : Fin cfg0.N) (i : S8x2048x128.Idx) :
    i ∈ ((cfg0.win 2).blk t).view.set ↔ ∀ a : Fin 3, win0_2.index t a * S1x256x128.size a ≤ (i a).val
      ∧ (i a).val < win0_2.index t a * S1x256x128.size a + S1x256x128.size a := by
  show i ∈ ((View.whole main_v0_0).slice (win0_2.rect t)).set ↔ _
  rw [View.set_slice_whole, Rect.mem_set_unit]
  exact Iff.rfl

/-- Every entry (b, r, d) of the context lies in the block of the point with block index (b, r / 256, 0). -/
theorem cover2 (i : S8x2048x128.Idx) :
    ∃ t : Fin cfg0.N, (cfg0.win 2).flush t = true ∧ i ∈ ((cfg0.win 2).blk t).view.set := by
  have hi0 : (i 0).val < 8 := (i 0).isLt
  have hi1 : (i 1).val < 2048 := (i 1).isLt
  have hi2 : (i 2).val < 128 := (i 2).isLt
  obtain ⟨t, ht⟩ := idx_onto2 ⟨(i 0).val, by omega⟩ ⟨(i 1).val / 256, by omega⟩
  have q0 : win0_2.index t (0 : Fin 3) = (i 0).val := congrFun ht 0
  have q1 : win0_2.index t (1 : Fin 3) = (i 1).val / 256 := congrFun ht 1
  have q2 : win0_2.index t (2 : Fin 3) = 0 := congrFun ht 2
  refine ⟨t, flush0_2 t, ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 128 ≤ (i 2).val ∧ (i 2).val < win0_2.index t (2 : Fin 3) * 128 + 128; omega

/-- After the run the context's array is the whole context array, of the arguments as launched. -/
theorem final2 (c : Dev nD) :
    (dats m 0 c).arrAt 2 cfg0.N = ctxMul (m ((c : Thread nD τ).loc main_arg0)) (m ((c : Thread nD τ).loc main_arg1)) :=
  (dats m 0 c).arrAt_eq_of_cover 2 (ctxMul (V m c main_arg0) (V m c main_arg1)) (fun t _ => flushed2_eq m c t) cover2

/-! ## The run -/

/-- Every weakly fair execution of the kernel ends with the context and the weights of the arguments as launched, in the
    reciprocal arrangement, and with the arguments unchanged. -/
theorem run : θ_run defs (onTc (τ := τ) (main (F := Ideal))) ⟨m, fun _ => 0, ρ⟩ fun r => ∀ c : Dev nD,
      r.2.mem ((c : Thread nD τ).loc main_v0_0) = ctxMul (m ((c : Thread nD τ).loc main_arg0)) (m ((c : Thread nD τ).loc main_arg1))
      ∧ r.2.mem ((c : Thread nD τ).loc main_v0_1) = attnMul (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2.1.trans (final3 m c), (h c).2.2.1, (h c).2.2.2⟩)
    (Value.run_blocks m ρ)

end Cert.KernelIdeal.ArrValue

end
-- ==== Proof.lean ====
/-
  Dot-product attention: a blocked kernel against the whole-array formula.

  Both programs take queries dec[b, q, d] (8 × 2048 × 128) and keys enc[b, k, d] (8 × 4096 × 128), the keys serving as
  the values too, and return the context and the attention weights. With the scores s[b, q, k] = Σ_d dec[b, q, d] ·
  enc[b, k, d], the row maximum M[b, q], the exponentials p = exp (s − M) and the row sums L[b, q] = Σ_k p[b, q, k], the
  reference returns attn = p / L and ctx[b, q, d] = Σ_k attn[b, q, k] · enc[b, k, d]. The kernel works on blocks of 256
  query rows of one batch entry, and returns attn = p · (1 / L) and ctx = (Σ_k p · enc) · (1 / L): it multiplies by the
  reciprocal of the row sum, once for the weights and once, after the second product, for the context.

  On the extended reals the two are equal because the inputs are finite. Then every score is a real number, so the row
  maximum is a real number, every exponential a positive real and every row sum a positive real; dividing by it is
  multiplying by its reciprocal, and the reciprocal moves inside the sum over the keys by distributivity of the reals
  (RowSoftmax, Spec). Without finiteness the factor could not be moved: a product does not distribute over a sum that
  meets both infinities. That the kernel's blocks, laid side by side, are the whole arrays is KernelPayload and
  KernelValue; that the reference's operations compose to the quotient arrangement is RefValue; that the precondition
  makes every entry real is Finite. The idealized kernel is the kernel's own text read over the extended reals (no
  rewrite was applied), so nothing is owed for that conjunct; the three frames are the generated ones.
-/
import proofs.«169890_j49331994362117_2_alg».proof.Defs
import proofs.«169890_j49331994362117_2_alg».proof.Proof.Gen.Kernel
import proofs.«169890_j49331994362117_2_alg».proof.Proof.Gen.Kernel.Skeleton
import proofs.«169890_j49331994362117_2_alg».proof.Proof.Gen.Kernel.Launch
import proofs.«169890_j49331994362117_2_alg».proof.Proof.Gen.Kernel.Points
import proofs.«169890_j49331994362117_2_alg».proof.Proof.Gen.Kernel.Frame
import proofs.«169890_j49331994362117_2_alg».proof.Proof.Gen.KernelIdeal
import proofs.«169890_j49331994362117_2_alg».proof.Proof.Gen.KernelIdeal.Skeleton
import proofs.«169890_j49331994362117_2_alg».proof.Proof.Gen.KernelIdeal.Launch
import proofs.«169890_j49331994362117_2_alg».proof.Proof.Gen.KernelIdeal.Points
import proofs.«169890_j49331994362117_2_alg».proof.Proof.Gen.KernelIdeal.Frame
import proofs.«169890_j49331994362117_2_alg».proof.Proof.Gen.ReferenceIdeal
import proofs.«169890_j49331994362117_2_alg».proof.Proof.Gen.Pre_finite_inputs
import proofs.«169890_j49331994362117_2_alg».proof.Proof.Gen.KernelIdeal.Value
import proofs.«169890_j49331994362117_2_alg».proof.Proof.Gen.ReferenceIdeal.Run
import proofs.«169890_j49331994362117_2_alg».proof.Proof.Gen.ReferenceIdeal.Read
import proofs.«169890_j49331994362117_2_alg».proof.Proof.Finite
import proofs.«169890_j49331994362117_2_alg».proof.Proof.RefValue
import proofs.«169890_j49331994362117_2_alg».proof.Proof.KernelValue
import Idealize.ShloMosaic.Adequacy
import Idealize.ShloMosaic.Init

noncomputable section

namespace Cert.Proof

open Idealize.ShloMosaic Idealize.ShloMosaic.TcCoe Idealize.SL.Sem Cert.Attention

/-- The kernel as printed runs, and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says of the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on finite queries and keys, the kernel ends with the context and the weights in the
    reciprocal arrangement, the reference with both in the quotient arrangement, and on real entries the arrangements are
    one pair of arrays. -/
theorem algebraic : Cert.algebraic_KernelIdeal_ReferenceIdeal := by
  intro m ρ m' ρ' hpre hagree
  refine ⟨fun c => ctxMul (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => attnMul (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrValue.run m ρ, ?_⟩
  refine (θ_run Cert.ReferenceIdeal.defs _ _).mono (fun _ h c => ?_) (Cert.ReferenceIdeal.Value.run (F := Ideal) m' ρ')
  obtain ⟨hctx, hattn, ha0, ha1⟩ := h c
  obtain ⟨hd, he⟩ := args_real _ _ (hpre c)
  refine ⟨?_, ?_, ha0, ha1⟩
  · rw [hctx, Cert.ReferenceIdeal.Read.val_main_v12_eq, Cert.ReferenceIdeal.RefValue.ctx_stage, (hagree c).1, (hagree c).2]
    exact (ctx_eq hd he).symm
  · rw [hattn, Cert.ReferenceIdeal.Read.val_main_v11_eq, Cert.ReferenceIdeal.RefValue.attn_stage, (hagree c).1, (hagree c).2]
    exact (attn_eq hd he).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
